-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2x512 : Shape := ⟨3, ![65536, 2, 512]⟩
abbrev S_ : Shape := ⟨0, ![]⟩

class Facts : Prop where
  bcast_S_S65536x2x512 : S_.BroadcastsInDim S65536x2x512 (![] : Fin 0 → Fin S65536x2x512.rank)
  reducesTo_S65536x2x512_S_d0_1_2 : S65536x2x512.ReducesTo [0, 1, 2] S_
  h_S_ : 0 < S_.numel

variable [Facts]

def fn {F : FTy → Type} [FloatOps F] (main_arg0 : FVec F S65536x2x512 .f32) : IVec S_ 1 :=
  let main_v0 : FVec F S65536x2x512 .f32 := Host.absf main_arg0
  let main_cst : FVec F S_ .f32 := constant S_ .f32 0x7F800000#32
  let main_v1 : FVec F S65536x2x512 .f32 := broadcastInDim S65536x2x512 ![] bcast_S_S65536x2x512 main_cst
  let main_v2 : IVec S65536x2x512 1 := cmpf .olt main_v0 main_v1
  let main_c : IVec S_ 1 := constantI S_ 1 1#1
  let main_v3 : IVec S_ 1 := (fun x v => Host.reduce IntOp.andi x v reducesTo_S65536x2x512_S_d0_1_2 h_S_) main_v2 main_c
  main_v3
-- ==== Kernel.lean ====
abbrev S65536x2x512 : Shape := ⟨3, ![65536, 2, 512]⟩
abbrev S65536x1024 : Shape := ⟨2, ![65536, 1024]⟩
abbrev S2048x1024 : Shape := ⟨2, ![2048, 1024]⟩

abbrev nBuf : Space → Nat
  | .hbm => 3
  | .vmem => 4
  | .smem => 0
  | _ => 0

abbrev bufTy : (tb : Table) → Fin (tcTables nBuf tb) → BufTy
  | .hbm, ⟨0, _⟩ => ⟨S65536x2x512, .f32⟩
  | .hbm, ⟨1, _⟩ => ⟨S65536x1024, .f32⟩
  | .hbm, ⟨2, _⟩ => ⟨S65536x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S65536x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S65536x2x512_S65536x1024 : S65536x2x512.ShapeCasts S65536x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S65536x2x512 : Shape := ⟨3, ![65536, 2, 512]⟩
abbrev S65536x1024 : Shape := ⟨2, ![65536, 1024]⟩

abbrev nBuf : Space → Nat
  | .hbm => 2
  | .vmem => 0
  | .smem => 0
  | _ => 0

abbrev bufTy : (tb : Table) → Fin (tcTables nBuf tb) → BufTy
  | .hbm, ⟨0, _⟩ => ⟨S65536x2x512, .f32⟩
  | .hbm, ⟨1, _⟩ => ⟨S65536x1024, .f32⟩
  | _, _ => ⟨S65536x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  shapeCasts_S65536x2x512_S65536x1024 : S65536x2x512.ShapeCasts S65536x1024

variable [Facts₀]

class Facts : Prop extends Facts₀ where

variable [Facts]
-- ==== Proof.BlockCopy.lean ====
/-
  The kernel's result array, as a value.

  The wrapper re-indexes its argument, f32[65536, 2, 512], as a flat array f32[65536, 1024]: the last two axes are
  contiguous in row-major order, so entry (r, q) of the flat array is entry (r, q / 512, q % 512) of the argument. The
  kernel then copies the flat array into its result 2048 rows at a time: grid point t loads rows 2048·t … 2048·t + 2047,
  all 1024 columns, and stores them unchanged at the same rows of the result.

  Three facts make the result array the flat array itself.
    · At one point, what is left for writing back is the block that was loaded: the body's only operation between the
      load and the store is a shape cast between equal shapes, which is the identity on values (`body_result`).
    · The input's and the output's block maps agree at every grid point — block row t, block column 0 — so what point t
      writes back is block t of the flat array (`written_back`).
    · Row r lies in the block of point r / 2048, and 65536 = 32 · 2048, so the 32 blocks cover every row
      (`rows_covered`).
  Hence the result array ends holding the flat array (`result_is_flat`), which is the argument re-indexed
  (`flat_eq`). No value is ever computed on, so every statement holds at any float instance, and no entry of the
  argument needs to be finite.
-/
import proofs.«177248_j29575144801128_2_alg».proof.Proof.Gen.KernelIdeal.Frame
import proofs.«177248_j29575144801128_2_alg».proof.Proof.Gen.KernelIdeal.Value
import Idealize.ShloMosaic.Lib.Pipeline.Value
import Idealize.ShloMosaic.Lib.StableHlo.Run
import Idealize.ShloMosaic.Lib.Tactic

noncomputable section

namespace Cert.KernelIdeal.BlockCopy

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The flat array as the copy finds it: what the wrapper's re-indexing left in the buffer the input window stages. -/
abbrev flat (c : Dev nD) : S65536x1024.Idx → Elt F .f32 := V m c main_v0

/-! ## One grid point -/

/-- The body loads and stores through the whole staging buffer: both offsets are zero. -/
theorem zero_offsets : (![0, 0] : Fin 2 → Nat) = fun _ => 0 := funext fun a => by fin_cases a <;> rfl

/-- What the body leaves in the output's staging buffer is the block it loaded: between the load and the store there
    is only a shape cast from [2048, 1024] to [2048, 1024], the identity. -/
theorem body_result (x : Vec F S2048x1024 .f32) : out0_1 x = x := by
  unfold out0_1
  rw [View.canon_unit_zero zero_offsets]
  simp only [View.ld_unit_zero (S := S2048x1024) zero_offsets]
  exact shapeCast_self x shapeCasts_S2048x1024_S2048x1024

/-! ## The two block maps -/

/-- Decided over the 32 grid points: at point t the input's block and the output's block sit at the same place, block
    row t and block column 0. -/
theorem block_maps : ∀ t : Fin cfg0.N,
    win0_0.index t (0 : Fin 2) = win0_1.index t (0 : Fin 2)
    ∧ win0_0.index t (1 : Fin 2) = win0_1.index t (1 : Fin 2)
    ∧ win0_1.index t (0 : Fin 2) = t.val
    ∧ win0_1.index t (1 : Fin 2) = 0 :=
  (by decide +kernel : ∀ t : Fin grid0.N, _)

/-- What point t writes back to the result is block t of the flat array: the loaded block, unchanged, and the input
    block is read at the very rows and columns the output block is written to. -/
theorem written_back (c : Dev nD) (t : Fin cfg0.N) :
    (dats m 0 c).flushed 1 t = ((cfg0.win 1).blk t).view.read (Elt F) (flat m c) := by
  rw [Value.flushed1]
  funext j
  show out0_1 (iblk m c 0 t) j = flat m c (((cfg0.win 1).blk t).view.emb j)
  refine (congrFun (body_result (iblk m c 0 t)) j).trans ?_
  show flat m c (((cfg0.win 0).blk t).view.emb j) = flat m c (((cfg0.win 1).blk t).view.emb j)
  obtain ⟨e0, e1, -, -⟩ := block_maps t
  have same_place : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  rw [same_place]

/-! ## The blocks cover the result -/

/-- An index of the result is in point t's block iff, on each axis, it lies in the block's range: rows
    2048·(block row) … + 2047, columns 1024·(block column) … + 1023. -/
theorem in_block (t : Fin cfg0.N) (i : S65536x1024.Idx) :
    i ∈ ((cfg0.win 1).blk t).view.set ↔
      ∀ a : Fin 2, win0_1.index t a * S2048x1024.size a ≤ (i a).val
        ∧ (i a).val < win0_1.index t a * S2048x1024.size a + S2048x1024.size a := by
  show i ∈ ((View.whole main_v1).slice (win0_1.rect t)).set ↔ _
  rw [View.set_slice_whole, Rect.mem_set_unit]
  exact Iff.rfl

/-- Every index (r, q) of the result is in the block of point r / 2048, which is written back: r / 2048 < 32 because
    r < 65536, and 2048·(r / 2048) ≤ r < 2048·(r / 2048) + 2048. -/
theorem rows_covered (i : S65536x1024.Idx) :
    ∃ t : Fin cfg0.N, (cfg0.win 1).flush t = true ∧ i ∈ ((cfg0.win 1).blk t).view.set := by
  have hr : (i 0).val < 65536 := (i 0).isLt
  have hq : (i 1).val < 1024 := (i 1).isLt
  have hN : cfg0.N = 32 := N_0
  obtain ⟨t, ht⟩ : ∃ t : Fin cfg0.N, t.val = (i 0).val / 2048 := ⟨⟨(i 0).val / 2048, by omega⟩, rfl⟩
  obtain ⟨-, -, row, col⟩ := block_maps t
  refine ⟨t, flush0_1 t, ?_⟩
  rw [in_block]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 1024 ≤ (i 1).val ∧ (i 1).val < win0_1.index t (1 : Fin 2) * 1024 + 1024
    omega

/-! ## The result array -/

/-- After the last point the result array holds the flat array: every index is in a block that was written back, and
    each block written back is that block of the flat array. -/
theorem result_is_flat (c : Dev nD) : (dats m 0 c).arrAt 1 cfg0.N = flat m c :=
  (dats m 0 c).arrAt_eq_of_cover 1 (flat m c) (fun t _ => written_back m c t) rows_covered

/-- The flat array is the argument re-indexed from [65536, 2, 512] to [65536, 1024]: the one operation the wrapper
    runs before the copy. -/
theorem flat_eq (c : Dev nD) :
    flat m c = shapeCast S65536x1024 (m ((c : Thread nD τ).loc main_arg0)) shapeCasts_S65536x2x512_S65536x1024 := by
  dsimp only [flat, Gen.V, Gen.hostOps0]
  after_results
  rfl

/-- Every weakly fair execution of the kernel program terminates with its result array at the argument re-indexed,
    and the argument as it was. -/
theorem run : θ_run defs (onTc (τ := τ) (main (F := F))) ⟨m, fun _ => 0, ρ⟩ fun r => ∀ c : Dev nD,
      r.2.mem ((c : Thread nD τ).loc main_v1)
        = shapeCast S65536x1024 (m ((c : Thread nD τ).loc main_arg0)) shapeCasts_S65536x2x512_S65536x1024
      ∧ r.2.mem ((c : Thread nD τ).loc main_arg0) = m ((c : Thread nD τ).loc main_arg0) :=
  (θ_run defs _ _).mono
    (fun r h c => ⟨(h c).1.trans ((result_is_flat m c).trans (flat_eq m c)), (h c).2⟩)
    (Value.run_blocks m ρ)

end Cert.KernelIdeal.BlockCopy

end
-- ==== Proof.lean ====
/-
  The kernel flattens each example of f32[65536, 2, 512] to a row of f32[65536, 1024], and so does the reference.

  The reference is one re-indexing: entry (r, q) of its result is entry (r, q / 512, q % 512) of the argument, the last
  two axes being contiguous in row-major order. The kernel program makes the same re-indexing first, and then copies the
  flat array into its result in 32 blocks of 2048 rows, each block loaded whole and stored unchanged at the same rows
  (Proof/BlockCopy.lean: the blocks cover the array, so the result array ends holding the flat array). Both programs
  therefore end with the same function of the argument — the argument re-indexed — and from memories that agree on the
  argument the two results are equal entry by entry. No arithmetic is done on any value, so the equality holds for every
  extended real, the infinities included: the precondition that the inputs are finite is never used.

  The three frame claims — each program terminates on every weakly fair execution, without a fault, its argument
  unchanged — are the generated frame runs of the two kernel programs and the generated run of the reference with the
  result dropped. The idealization rewrote nothing in the kernel, so that it is the kernel's idealization is immediate.
-/
import proofs.«177248_j29575144801128_2_alg».proof.Defs
import proofs.«177248_j29575144801128_2_alg».proof.Proof.Gen.Kernel
import proofs.«177248_j29575144801128_2_alg».proof.Proof.Gen.Kernel.Skeleton
import proofs.«177248_j29575144801128_2_alg».proof.Proof.Gen.Kernel.Launch
import proofs.«177248_j29575144801128_2_alg».proof.Proof.Gen.Kernel.Points
import proofs.«177248_j29575144801128_2_alg».proof.Proof.Gen.Kernel.Frame
import proofs.«177248_j29575144801128_2_alg».proof.Proof.Gen.KernelIdeal
import proofs.«177248_j29575144801128_2_alg».proof.Proof.Gen.KernelIdeal.Skeleton
import proofs.«177248_j29575144801128_2_alg».proof.Proof.Gen.KernelIdeal.Launch
import proofs.«177248_j29575144801128_2_alg».proof.Proof.Gen.KernelIdeal.Points
import proofs.«177248_j29575144801128_2_alg».proof.Proof.Gen.KernelIdeal.Frame
import proofs.«177248_j29575144801128_2_alg».proof.Proof.Gen.KernelIdeal.Value
import proofs.«177248_j29575144801128_2_alg».proof.Proof.Gen.ReferenceIdeal
import proofs.«177248_j29575144801128_2_alg».proof.Proof.Gen.ReferenceIdeal.Run
import proofs.«177248_j29575144801128_2_alg».proof.Proof.Gen.Pre_finite_inputs
import proofs.«177248_j29575144801128_2_alg».proof.Proof.BlockCopy
import Idealize.ShloMosaic.Adequacy
import Idealize.ShloMosaic.Init

noncomputable section

namespace Cert.Proof

open Idealize.ShloMosaic Idealize.SL.Sem

/-- The kernel program as printed runs to the end and leaves its argument as it was. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is one host operation: its run ends with the argument as it was (and the result re-indexed, which this
    claim does not ask for). -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing in the kernel was rewritten when it was read over the extended reals: there is no rewrite to justify. -/
theorem preserves : Cert.preserves_Kernel_KernelIdeal := trivial

/-- Over the extended reals, from memories that agree on the argument, the kernel's result array and the reference's
    both end at the argument re-indexed from [65536, 2, 512] to [65536, 1024]: the kernel's because its 32 copied blocks
    cover the flat array, the reference's by its one operation. The two programs spell the re-indexing with the same
    shapes, so the two terms are one. -/
theorem algebraic : Cert.algebraic_KernelIdeal_ReferenceIdeal := by
  intro m ρ m' ρ' _ hagree
  refine ⟨_, Cert.KernelIdeal.BlockCopy.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
